-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4x2048 : Shape := ⟨3, ![1024, 4, 2048]⟩
abbrev S_ : Shape := ⟨0, ![]⟩

class Facts : Prop where
  bcast_S_S1024x4x2048 : S_.BroadcastsInDim S1024x4x2048 (![] : Fin 0 → Fin S1024x4x2048.rank)
  reducesTo_S1024x4x2048_S_d0_1_2 : S1024x4x2048.ReducesTo [0, 1, 2] S_
  h_S_ : 0 < S_.numel

variable [Facts]

def fn {F : FTy → Type} [FloatOps F] (main_arg0 : FVec F S1024x4x2048 .f32) : IVec S_ 1 :=
  let main_v0 : FVec F S1024x4x2048 .f32 := Host.absf main_arg0
  let main_cst : FVec F S_ .f32 := constant S_ .f32 0x7F800000#32
  let main_v1 : FVec F S1024x4x2048 .f32 := broadcastInDim S1024x4x2048 ![] bcast_S_S1024x4x2048 main_cst
  let main_v2 : IVec S1024x4x2048 1 := cmpf .olt main_v0 main_v1
  let main_c : IVec S_ 1 := constantI S_ 1 1#1
  let main_v3 : IVec S_ 1 := (fun x v => Host.reduce IntOp.andi x v reducesTo_S1024x4x2048_S_d0_1_2 h_S_) main_v2 main_c
  main_v3
-- ==== Kernel.lean ====
abbrev S1024x4x2048 : Shape := ⟨3, ![1024, 4, 2048]⟩
abbrev S1024x1x2048 : Shape := ⟨3, ![1024, 1, 2048]⟩
abbrev S32x1x2048 : Shape := ⟨3, ![32, 1, 2048]⟩
abbrev S_ : Shape := ⟨0, ![]⟩
abbrev S1024x2048 : Shape := ⟨2, ![1024, 2048]⟩

abbrev nBuf : Table → Nat
  | .hbm => 3
  | .local .scVector .vmem => 1
  | _ => 0

abbrev bufTy : (tb : Table) → Fin (nBuf tb) → BufTy
  | .hbm, ⟨0, _⟩ => ⟨S1024x4x2048, .f32⟩
  | .hbm, ⟨1, _⟩ => ⟨S1024x1x2048, .f32⟩
  | .hbm, ⟨2, _⟩ => ⟨S1024x2048, .f32⟩
  | .local .scVector .vmem, ⟨0, _⟩ => ⟨S32x1x2048, .f32⟩
  | _, _ => ⟨S1024x4x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32_r0 : BitVec 32 := 1#32
  let c0_i32_r0 : BitVec 32 := 0#32
  ![v2.toNat, 1, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_r1 : BitVec 32 := 0#32
  let c0_i32_0_r1 : BitVec 32 := 0#32
  ![v2.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x1x2048_S1024x2048 : S1024x1x2048.ShapeCasts S1024x2048
  hcc0_scoped0 : 0 + S_.numel ≤ 2
  hcc0_scoped1 : 1 + S_.numel ≤ 2
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32x1x2048.size a ≤ S1024x4x2048.size a
  k0_off2_inb : ∀ i : grid0.Coords, ∀ a, (k0_off2 i) a + S32x1x2048.size a ≤ S1024x1x2048.size a

variable [Facts₀]

abbrev cc0_scoped0 : DmaSems sig S_ := SemArray.consecutive 0 S_ hcc0_scoped0
abbrev cc0_scoped1 : DmaSems sig S_ := SemArray.consecutive 1 S_ hcc0_scoped1

class Facts : Prop extends Facts₀ where

variable [Facts]
-- ==== ReferenceIdeal.lean ====
abbrev S1024x4x2048 : Shape := ⟨3, ![1024, 4, 2048]⟩
abbrev S_ : Shape := ⟨0, ![]⟩
abbrev S1 : Shape := ⟨1, ![1]⟩
abbrev S1024x2048 : Shape := ⟨2, ![1024, 2048]⟩

abbrev nBuf : Space → Nat
  | .hbm => 22
  | .vmem => 0
  | .smem => 0
  | _ => 0

abbrev bufTy : (tb : Table) → Fin (tcTables nBuf tb) → BufTy
  | .hbm, ⟨0, _⟩ => ⟨S1024x4x2048, .f32⟩
  | .hbm, ⟨1, _⟩ => ⟨S_, .i32⟩
  | .hbm, ⟨2, _⟩ => ⟨S_, .i32⟩
  | .hbm, ⟨3, _⟩ => ⟨S_, .i1⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S1, .i1⟩
  | .hbm, ⟨13, _⟩ => ⟨S1, .i1⟩
  | .hbm, ⟨14, _⟩ => ⟨S1, .i1⟩
  | .hbm, ⟨15, _⟩ => ⟨S_, .i1⟩
  | .hbm, ⟨16, _⟩ => ⟨S_, .i1⟩
  | .hbm, ⟨17, _⟩ => ⟨S1024x2048, .f32⟩
  | .hbm, ⟨18, _⟩ => ⟨S1024x2048, .i1⟩
  | .hbm, ⟨19, _⟩ => ⟨S_, .f32⟩
  | .hbm, ⟨20, _⟩ => ⟨S1024x2048, .f32⟩
  | .hbm, ⟨21, _⟩ => ⟨S1024x2048, .f32⟩
  | _, _ => ⟨S1024x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_c_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_c_1 : Ref sig .tc := ⟨.hbm, 8, rfl⟩
abbrev main_call0_v4 : Ref sig .tc := ⟨.hbm, 9, rfl⟩
abbrev main_call0_c_2 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c_3 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_cst : Ref sig .tc := ⟨.hbm, 19, rfl⟩
abbrev main_call0_v12 : Ref sig .tc := ⟨.hbm, 20, rfl⟩
abbrev main_v0 : Ref sig .tc := ⟨.hbm, 21, rfl⟩

abbrev nD : Nat := 1
abbrev τ : Topo := Topo.v7x

variable {F : FTy → Type} [FloatOps F]

class Facts₀ : Prop where
  bcast_S_S1 : S_.BroadcastsInDim S1 (![] : Fin 0 → Fin S1.rank)
  reducesTo_S1_S_d0 : S1.ReducesTo [0] S_
  h_S_ : 0 < S_.numel
  bcast_S_S1024x2048 : S_.BroadcastsInDim S1024x2048 (![] : Fin 0 → Fin S1024x2048.rank)
  gather_S1024x4x2048_S1_S1024x2048_01_1_n_n_1_0_102412048_wf : GatherDims.WF S1024x4x2048 S1 S1024x2048 [0, 1] [1] [] [1] [] 0 ![1024, 1, 2048]

variable [Facts₀]

def gather_S1024x4x2048_S1_S1024x2048_01_1_n_n_1_0_102412048 : GatherDims S1024x4x2048 S1 S1024x2048 where
  offsetDims := [0, 1]
  collapsedSliceDims := [1]
  operandBatchingDims := []
  startIndicesBatchingDims := []
  startIndexMap := [1]
  indexVectorDim := 0
  sliceSizes := ![1024, 1, 2048]
  wf := gather_S1024x4x2048_S1_S1024x2048_01_1_n_n_1_0_102412048_wf

class Facts : Prop extends Facts₀ where

variable [Facts]
-- ==== Proof.Plane.lean ====
/-
  The one function both programs compute: plane 1 along the middle axis of a [1024, 4, 2048] array.
  As a [1024, 2048] array its entry (i, j) is the operand's entry (i, 1, j); kept with a unit middle axis,
  as a [1024, 1, 2048] array, its entry (i, 0, j) is the same operand entry. Nothing here depends on the
  element type: the equivalence is pure data movement.
-/
import Idealize.ShloMosaic.PureOps.Ideal
import Idealize.ShloMosaic.Lib.ValueIdx

noncomputable section

namespace Cert.Plane

open Idealize.ShloMosaic Idealize.ShloMosaic.ValueIdx

/-- Plane 1 of the middle axis, middle axis dropped: `(i, j) ↦ x (i, 1, j)`. -/
def plane {α : Type} (x : (⟨3, ![1024, 4, 2048]⟩ : Shape).Idx → α) : (⟨2, ![1024, 2048]⟩ : Shape).Idx → α :=
  fun j => x (ix3 (n0 := 1024) (n1 := 4) (n2 := 2048) (j 0) 1 (j 1))

/-- Plane 1 of the middle axis, kept as a unit axis: `(i, 0, j) ↦ x (i, 1, j)`. -/
def slab {α : Type} (x : (⟨3, ![1024, 4, 2048]⟩ : Shape).Idx → α) : (⟨3, ![1024, 1, 2048]⟩ : Shape).Idx → α :=
  fun k => x (ix3 (n0 := 1024) (n1 := 4) (n2 := 2048) (k 0) 1 (k 2))

end Cert.Plane

end
-- ==== Proof.LibLandedWhole.lean ====
/-
  One whole-rectangle write through a view, read on the view's own elements.

  After a payload `X` has been written through the WHOLE of a view `v` (one transfer landing on it, one unmasked
  store), every element of the view holds `X` at its preimage, whatever the buffer held before. So the points-to on
  the view's elements may be restated at ANY contents `g'` that read as `X` through the view: off the view's
  elements the contents are irrelevant, on them both sides are `X`.

  The statement is over an abstract view: instantiated at a literal band of a large array it never enumerates the
  band's index type.
-/
import Idealize.ShloMosaic.Lib.Writes
import Idealize.ShloMosaic.Lib.Exec.Geometry

noncomputable section

namespace Cert.LibLandedWhole

open Idealize.ShloMosaic
open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U] {Lvl : Type}
variable (c : Thread nD τ) {sp : Space} {s : Shape} {e : EltTy}

local notation "𝕄" => MT nD τ sig Ix Val Name U Lvl

/-- The view's elements after the one whole-rectangle write of `X` over any prior contents `g` are the points-to at
    any contents `g'` that the view reads as `X`. -/
theorem pointsTo_writes_whole_congr (v : View sig c.2.kind sp s e) (q : PosShare TreeShare) (g g' : Buf Val (v.loc c))
    (X : s.Idx → Val e) (h : ∀ y, v.read Val g' y = X y) :
    (v.loc c ↦[v.set]{q} v.writes Val g [⟨Rect.whole s, X⟩] : sProp 𝕄) = v.loc c ↦[v.set]{q} g' :=
  pointsTo_congr fun i hi => by
    obtain ⟨y, -, rfl⟩ := Finset.mem_map.mp hi
    have h1 := congrFun (View.read_writes_whole v g X) y
    rw [← h y, View.read_apply, View.read_apply] at h1
    exact (cast_inj _).mp h1

end Cert.LibLandedWhole

end
-- ==== Proof.LibFlattenRows.lean ====
/-
  The two leading axes of an array merged into one, or one leading axis split into two, by a shape cast, read at an
  index given by coordinates.

  An array of shape [a, b, c] and an array of shape [n, c] with n = a·b list the same entries in row-major order: entry
  (p, q, r) of the first stands at position (p·b + q)·c + r, which is the position of entry (p·b + q, r) of the second.
  A cast in either direction therefore reads, at the one index, the operand at the other. The row number is passed as
  its own `Fin n` with the equation `k = p·b + q`, so that a caller may spell it as it finds it.
-/
import Idealize.ShloMosaic.Lib.Pipeline.Value
import Idealize.ShloMosaic.Lib.ValueIdx

namespace Cert.LibFlattenRows

open Idealize.ShloMosaic Idealize.ShloMosaic.ValueIdx

variable {α : Type}

/-- Row `p·b + q` of the merged array exists: it is below `a·b`. -/
theorem row_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- An `[a, b, c]` array cast to `[n, c]` (so `n = a·b`) reads, at `(k, r)` with `k = p·b + q`, the operand at
    `(p, q, r)`: the two indices have the same row-major position. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (r : Fin c) (k : Fin n)
    (hk : k.val = p.val * b + q.val) :
    shapeCast ⟨2, ![n, c]⟩ x h (ix2 k r) = x (ix3 p q r) :=
  shapeCast_apply x h _ _ (by
    rw [Shape.rowMajor_val_three, Shape.rowMajor_val_two]
    show (p.val * b + q.val) * c + r.val = k.val * c + r.val
    rw [hk])

/-- An `[n, c]` array cast to `[a, b, c]` (so `n = a·b`) reads, at `(p, q, r)`, the operand at `(k, r)` with
    `k = p·b + q`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (r : Fin c) (k : Fin n)
    (hk : k.val = p.val * b + q.val) :
    shapeCast ⟨3, ![a, b, c]⟩ x h (ix3 p q r) = x (ix2 k r) :=
  shapeCast_apply x h _ _ (by
    rw [Shape.rowMajor_val_three, Shape.rowMajor_val_two]
    show k.val * c + r.val = (p.val * b + q.val) * c + r.val
    rw [hk])

end Cert.LibFlattenRows
-- ==== Proof.SplitIdeal.lean ====
/-
  The kernel side. Thirty-two vector subcores (SparseCore c in {0, 1}, subcore s in 0..15) each move one band of
  32 rows: worker w = 2 s + c copies rows [32 w, 32 w + 32) of plane 1 of the [1024, 4, 2048] argument into its own
  [32, 1, 2048] scratch, waits, copies the scratch onto rows [32 w, 32 w + 32) of the [1024, 1, 2048] result, waits.
  The bands are pairwise disjoint and cover all 1024 rows, so the result array ends as plane 1 of the argument
  with its unit middle axis kept (`Cert.Plane.slab`); the host then drops the unit axis, a row-major recast, which
  gives `Cert.Plane.plane`. Every copy is waited for before the next is issued and no two subcores touch a common
  element, so the value does not depend on the interleaving. Stated for any float instance: nothing is computed.
-/
import proofs.«202682_g7335804141591_cont_9to1_m_868_12_alg».proof.KernelIdeal
import Idealize.ShloMosaic.Lib.SparseCore.Launch
import Idealize.ShloMosaic.Lib.StableHlo.Run
import Idealize.ShloMosaic.Lib.Pipeline.Kit
import Idealize.ShloMosaic.Lib.Tactic
import proofs.«202682_g7335804141591_cont_9to1_m_868_12_alg».proof.Proof.Gen.KernelIdeal
import proofs.«202682_g7335804141591_cont_9to1_m_868_12_alg».proof.Proof.Gen.KernelIdeal.Skeleton
import proofs.«202682_g7335804141591_cont_9to1_m_868_12_alg».proof.Proof.Plane
import proofs.«202682_g7335804141591_cont_9to1_m_868_12_alg».proof.Proof.LibLandedWhole
import proofs.«202682_g7335804141591_cont_9to1_m_868_12_alg».proof.Proof.LibFlattenRows

noncomputable section

namespace Cert.KernelIdeal.Split

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

local notation "inW" => (Memref.whole Cert.KernelIdeal.main_arg0_scv : Memref Cert.KernelIdeal.sig Kind.scVector Space.hbm Cert.KernelIdeal.S1024x4x2048 EltTy.f32)
local notation "outW" => (Memref.whole Cert.KernelIdeal.main_v0_scv : Memref Cert.KernelIdeal.sig Kind.scVector Space.hbm Cert.KernelIdeal.S1024x1x2048 EltTy.f32)
local notation "scrW" => (Memref.whole Cert.KernelIdeal.cc0_scratch0 : Memref Cert.KernelIdeal.sig Kind.scVector Space.vmem Cert.KernelIdeal.S32x1x2048 EltTy.f32)

/-- The argument, the kernel's result with its unit middle axis, and @main's result, as locations of device `d`. -/
abbrev iLoc (d : Dev nD) : Loc nD τ sig := (SparseCore.T d).loc main_arg0
abbrev oLoc (d : Dev nD) : Loc nD τ sig := (SparseCore.T d).loc main_v0
abbrev rLoc (d : Dev nD) : Loc nD τ sig := (SparseCore.T d).loc main_v1

variable [FloatOps F]

/-! ## One subcore's band -/

section Tile

variable (d : Dev nD) (L : grid0.Coords)

abbrev cV (L : grid0.Coords) : Fin τ.nSC := (L 0).castLE hcore0
abbrev jV (L : grid0.Coords) : Fin τ.nSub := (L 1).castLE hsub0

/-- The band of the argument the subcore at `L` reads: 32 rows of plane 1; and the band of the result it writes. -/
abbrev inM (L : grid0.Coords) : Memref sig .scVector .hbm S32x1x2048 .f32 :=
  (inW).slice (Rect.unit (s := S1024x4x2048) (k0_off1 L) S32x1x2048.size (k0_off1_inb L)) (fun _ => rfl)
abbrev outM (L : grid0.Coords) : Memref sig .scVector .hbm S32x1x2048 .f32 :=
  (outW).slice (Rect.unit (s := S1024x1x2048) (k0_off2 L) S32x1x2048.size (k0_off2_inb L)) (fun _ => rfl)
abbrev inSet (L : grid0.Coords) : Finset S1024x4x2048.Idx := (inM L).view.set
abbrev outSet (L : grid0.Coords) : Finset S1024x1x2048.Idx := (outM L).view.set

/-- What a subcore is handed: its band of the argument and its band of the result, as launched; and what it hands
    back: the argument's band untouched, the result's band at plane 1 of the argument. -/
def tileGo (d : Dev nD) (L : grid0.Coords) : sProp 𝕄 :=
  iprop((iLoc d ↦[inSet L]{fullShare} m (iLoc d)) ∗ oLoc d ↦[outSet L]{fullShare} m (oLoc d))
def tileTd (d : Dev nD) (L : grid0.Coords) : sProp 𝕄 :=
  iprop((iLoc d ↦[inSet L]{fullShare} m (iLoc d)) ∗ oLoc d ↦[outSet L]{fullShare} (Cert.Plane.slab (m (iLoc d)) : Buf (Elt F) (oLoc d)))

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
/-- The subcore's two transfer semaphores are among its own cells. -/
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
/-- Its scratch is among its own buffers. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
theorem pts_in (f : Buf (Elt F) (iLoc d)) :
    ((inM L).view.loc (V d (cV L) (jV L)) ↦[(inM L).view.set]{fullShare} f : sProp 𝕄) = iLoc d ↦[inSet L]{fullShare} f := rfl
omit [FloatOps F] in
theorem pts_out (f : Buf (Elt F) (oLoc d)) :
    ((outM L).view.loc (V d (cV L) (jV L)) ↦[(outM L).view.set]{fullShare} f : sProp 𝕄) = oLoc d ↦[outSet L]{fullShare} f := rfl
omit [FloatOps F] in
theorem pts_scr (f : Buf (Elt F) ((V d (cV L) (jV L)).loc cc0_scratch0)) :
    ((scrW).view.loc (V d (cV L) (jV L)) ↦{fullShare} f : sProp 𝕄) = (V d (cV L) (jV L)).loc cc0_scratch0 ↦{fullShare} f := rfl

omit [FloatOps F] in
/-- Coordinate by coordinate, the element of the argument's band at `y` is the element of the result's band at `y`
    with the middle coordinate 1: both bands start at row 64 s + 32 c, the argument's on plane 1. -/
theorem emb_in_out (y : S32x1x2048.Idx) :
    (inM L).view.emb y = ValueIdx.ix3 (n0 := 1024) (n1 := 4) (n2 := 2048) ((outM L).view.emb y 0) 1 ((outM L).view.emb y 2) := by
  funext a; apply Fin.ext
  have h1 := k0_off1_eq L
  have h2 := k0_off2_eq L
  have e1 : ((inM L).view.emb y a : Nat) = k0_off1 L a + 1 * (y a : Nat) := rfl
  have e20 : ((outM L).view.emb y 0 : Nat) = k0_off2 L 0 + 1 * (y 0 : Nat) := rfl
  have e22 : ((outM L).view.emb y 2 : Nat) = k0_off2 L 2 + 1 * (y 2 : Nat) := rfl
  rw [e1, h1]
  match a with
  | ⟨0, _⟩ => show _ = ((outM L).view.emb y 0 : Nat); rw [e20, h2]; rfl
  | ⟨1, _⟩ => show _ = 1; have : (y 1 : Nat) = 0 := by have := (y 1).isLt; change (y 1 : Nat) < 1 at this; omega
              show 1 + 1 * (y 1 : Nat) = 1; omega
  | ⟨2, _⟩ => show _ = ((outM L).view.emb y 2 : Nat); rw [e22, h2]; rfl

omit [FloatOps F] in
/-- The result's band, after the argument's band has been landed on it whole, is plane 1 of the argument there. -/
theorem band_eq (g : Buf (Elt F) (oLoc d)) (X : S32x1x2048.Idx → Elt F .f32) (hX : X = (inM L).view.read (Elt F) (m (iLoc d))) :
    ((outM L).view.loc (V d (cV L) (jV L)) ↦[(outM L).view.set]{fullShare} (outM L).view.writes (Elt F) g [⟨Rect.whole S32x1x2048, X⟩] : sProp 𝕄)
      = (outM L).view.loc (V d (cV L) (jV L)) ↦[(outM L).view.set]{fullShare} (Cert.Plane.slab (m (iLoc d)) : Buf (Elt F) (oLoc d)) :=
  Cert.LibLandedWhole.pointsTo_writes_whole_congr (V d (cV L) (jV L)) (outM L).view fullShare g _ X fun y => by
    subst hX
    rw [View.read_apply, View.read_apply, emb_in_out]
    rfl

/-- One subcore's task: the argument's band into the scratch, the scratch onto the result's band, each copy waited
    for before anything else touches its ends. The argument's band comes back untouched, the result's band at
    plane 1 of the argument. -/
theorem tile_body (hF : (K (F := F)).Facts) (O : CellTallies nD τ sig (HIx 1)) (W : Waits sig (HIx 1)) (hO : ∀ g, O g none = 0) :
    iprop(levAts (K (F := F)).L (K (F := F)).lev ∗ emp ∗ tileGo m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__split L inW (Memref.isWhole_whole _) outW (Memref.isWhole_whole _) scrW (Memref.isWhole_whole _) cc0_scoped0 cc0_scoped1)
          fun _ => iprop(tileTd m d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__split_eq_skeleton]; unfold cc0__split_skel
  rw [(K (F := F)).scopedBufs_V hF d (cV L) (jV L), SparseCore.Cfg.scopedSems0_V (Val := Elt F) d (cV L) (jV L), ownSems0_V, ownBufs_V]
  unfold tileGo
  iintro ⟨#Hlv, -, ⟨Hi, Ho⟩, ⟨⟨%fs, Hs⟩, Hbufs⟩, ⟨HsemA, HsemB, Hsems⟩, HO⟩
  ihave Hmw := ((K (F := F)).mayWaits_none (thr := V d (cV L) (jV L)) hO) $$ Hlv
  ihave Hi' := (Entails.of_eq (pts_in (F := F) d L _).symm) $$ Hi
  ihave Ho' := (Entails.of_eq (pts_out (F := F) d L _).symm) $$ Ho
  ihave Hs' := (Entails.of_eq (pts_scr (F := F) d L _).symm) $$ Hs
  sl_exec
  -- what the second copy carried is what the first one read: the argument's band
  have hX : tile_body.sl.dma0_1 m d L fs = (inM L).view.read (Elt F) (m (iLoc d)) := by
    sl_unfold_run_names
    simp only [Memref.view_whole, View.write_whole_univ, View.read_whole]
  sl_step
  unfold tileTd
  isplitl [Hi' Ho']
  · isplitl [Hi']
    · iexact Hi'
    · iapply (Entails.of_eq (band_eq m d L _ _ hX)); iexact Ho'
  isplitl [Hs' Hbufs]
  · isplitl [Hs']
    · iexists _; iexact Hs'
    · iexact Hbufs
  isplitl [HsemA HsemB Hsems]
  · isplitl [HsemA]; · iexact HsemA
    isplitl [HsemB]; · iexact HsemB
    iexact Hsems
  iexists (insert (SemLoc.dma cc0_scoped1.sem, (default : HIx 1)) (insert (SemLoc.dma cc0_scoped0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

/-- The grid point of SparseCore `c`, subcore `i`. -/
abbrev Lof (c : Fin 2) (i : Fin 16) : grid0.Coords := coordsV ⟨c.val, c.isLt⟩ ⟨i.val, i.isLt⟩

theorem defs₀_vector (c : Fin τ.nSC) (s : Fin τ.nSub) :
    defs₀ (F := F) (.scVector c s) 0 ()
      = SparseCore.onTile hcore0 hsub0 (fun c s => cc0__split (coordsV c s)
          inW (Memref.isWhole_whole _) outW (Memref.isWhole_whole _) scrW (Memref.isWhole_whole _) cc0_scoped0 cc0_scoped1) ⟨⟩ c s := rfl

instance tileGo_storable (d : Dev nD) (L : grid0.Coords) : BI.Storable (upEmb : UEmb _ 𝕄) (tileGo m d L) := by
  unfold tileGo; infer_instance
instance tileTd_storable (d : Dev nD) (L : grid0.Coords) : BI.Storable (upEmb : UEmb _ 𝕄) (tileTd m d L) := by
  unfold tileTd; infer_instance

/-- The call hands SparseCore `c` its sixteen subcores' bands, each subcore its own; and takes them back landed. -/
def P : (K (F := F)).Pay (nD := nD) (Val := Elt F) (Name := ℕ) (U := UU) where
  st := fun q d c => match q with | 0 => bigSep Finset.univ fun i : Fin 16 => tileGo m d (Lof c i)
  dn := fun q d c => match q with | 0 => bigSep Finset.univ fun i : Fin 16 => tileTd m d (Lof c i)
  go := fun q d c i => match q with | 0 => tileGo m d (Lof c i)
  td := fun q d c i => match q with | 0 => tileTd m d (Lof c i)
  x := fun _ _ => iprop(emp)

instance P_storable : (P (F := F) m).IsStorable where
  st q d c := match q with | 0 => (inferInstance : BI.Storable (upEmb : UEmb _ 𝕄) (bigSep Finset.univ fun i : Fin 16 => tileGo m d (Lof c i)))
  dn q d c := match q with | 0 => (inferInstance : BI.Storable (upEmb : UEmb _ 𝕄) (bigSep Finset.univ fun i : Fin 16 => tileTd m d (Lof c i)))
  go q d c i := match q with | 0 => (inferInstance : BI.Storable (upEmb : UEmb _ 𝕄) (tileGo m d (Lof c i)))
  td q d c i := match q with | 0 => (inferInstance : BI.Storable (upEmb : UEmb _ 𝕄) (tileTd m d (Lof c i)))

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- A SparseCore's operands ARE its subcores' bands, and its results theirs: nothing to regroup. -/
theorem vecSplit : (K (F := F)).VecSplit' (P m) 0 := by
  intro d c
  show (bigSep Finset.univ fun i : Fin 16 => tileGo m d (Lof c i)) ⊢ |={Set.univ}=> iprop(
      (bigSep Finset.univ fun i : Fin 16 => tileGo m d (Lof c i))
      ∗ ((bigSep Finset.univ fun i : Fin 16 => tileTd m d (Lof c i)) -∗ (bigSep Finset.univ fun i : Fin 16 => tileTd m d (Lof c i))))
  iintro H; imodintro
  isplitl [H]; · iexact H
  iintro H; iexact H

/-! ## The bands: pairwise disjoint; the result's cover every row -/

abbrev inK (c : Fin 2) (i : Fin 16) : Finset S1024x4x2048.Idx := inSet (Lof c i)
abbrev outK (c : Fin 2) (i : Fin 16) : Finset S1024x1x2048.Idx := outSet (Lof c i)

omit [FloatOps F] in
theorem off1_Lof (c : Fin 2) (i : Fin 16) : k0_off1 (Lof c i) = ![64 * i.val + 32 * c.val, 1, 0] := k0_off1_eq (Lof c i)
omit [FloatOps F] in
theorem off2_Lof (c : Fin 2) (i : Fin 16) : k0_off2 (Lof c i) = ![64 * i.val + 32 * c.val, 0, 0] := k0_off2_eq (Lof c i)

omit [FloatOps F] in
/-- Two different subcores' first rows are at least 32 apart: worker 2 s + c starts at row 32 (2 s + c). -/
theorem rows_apart {c c' : Fin 2} {i i' : Fin 16} (h : (c, i) ≠ (c', i')) :
    64 * i.val + 32 * c.val + 32 ≤ 64 * i'.val + 32 * c'.val ∨ 64 * i'.val + 32 * c'.val + 32 ≤ 64 * i.val + 32 * c.val := by
  have hc := c.isLt; have hc' := c'.isLt
  have : c.val ≠ c'.val ∨ i.val ≠ i'.val := by
    by_contra hcon; push Not at hcon; exact h (Prod.ext (Fin.ext hcon.1) (Fin.ext hcon.2))
  omega

omit [FloatOps F] in
/-- A band is the element set of its rectangle: 32 rows from its first row, the whole of the other two axes' extents. -/
theorem outK_eq (c : Fin 2) (i : Fin 16) :
    outK c i = (Rect.unit (s := S1024x1x2048) (k0_off2 (Lof c i)) S32x1x2048.size (k0_off2_inb (Lof c i))).set := by
  show (outM (Lof c i)).view.set = _
  simp only [Memref.view_slice, Memref.view_whole, View.set_slice_whole]
omit [FloatOps F] in
theorem inK_eq (c : Fin 2) (i : Fin 16) :
    inK c i = (Rect.unit (s := S1024x4x2048) (k0_off1 (Lof c i)) S32x1x2048.size (k0_off1_inb (Lof c i))).set := by
  show (inM (Lof c i)).view.set = _
  simp only [Memref.view_slice, Memref.view_whole, View.set_slice_whole]

omit [FloatOps F] in
theorem outK_disjoint (c : Fin 2) (i : Fin 16) (c' : Fin 2) (i' : Fin 16) (h : (c, i) ≠ (c', i')) : Disjoint (outK c i) (outK c' i') := by
  rw [outK_eq, outK_eq]
  refine Rect.unit_disjoint 0 ?_
  rw [off2_Lof, off2_Lof]
  exact rows_apart h

omit [FloatOps F] in
theorem inK_disjoint (c : Fin 2) (i : Fin 16) (c' : Fin 2) (i' : Fin 16) (h : (c, i) ≠ (c', i')) : Disjoint (inK c i) (inK c' i') := by
  rw [inK_eq, inK_eq]
  refine Rect.unit_disjoint 0 ?_
  rw [off1_Lof, off1_Lof]
  exact rows_apart h

omit [FloatOps F] in
/-- Row r of the result lies in the band of subcore s = r / 64 of SparseCore c = (r / 32) mod 2. -/
theorem outK_cover : ((Finset.univ : Finset (Fin 2)).biUnion fun c => (Finset.univ : Finset (Fin 16)).biUnion fun i => outK c i) = Finset.univ := by
  ext x
  simp only [Finset.mem_biUnion, Finset.mem_univ, true_and, iff_true]
  have hx : (x 0).val < 1024 := (x 0).isLt
  refine ⟨⟨(x 0).val / 32 % 2, by omega⟩, ⟨(x 0).val / 64, by omega⟩, ?_⟩
  rw [outK_eq, Rect.mem_set_unit, off2_Lof]
  intro a
  match a with
  | ⟨0, _⟩ =>
    show 64 * ((x 0).val / 64) + 32 * ((x 0).val / 32 % 2) ≤ (x 0).val ∧ (x 0).val < 64 * ((x 0).val / 64) + 32 * ((x 0).val / 32 % 2) + 32
    omega
  | ⟨1, _⟩ =>
    have h1 : (x 1).val < 1 := (x 1).isLt
    show 0 ≤ (x 1).val ∧ (x 1).val < 0 + 1
    omega
  | ⟨2, _⟩ =>
    have h2 : (x 2).val < 2048 := (x 2).isLt
    show 0 ≤ (x 2).val ∧ (x 2).val < 0 + 2048
    omega

omit [FloatOps F] in
/-- A points-to on the union of a family of pairwise disjoint bands, one per (SparseCore, subcore), is the bands'. -/
theorem pts_bands {ℓ : Loc nD τ sig} (Kf : Fin 2 → Fin 16 → Finset (Idx ℓ))
    (hd : ∀ c i c' i', (c, i) ≠ (c', i') → Disjoint (Kf c i) (Kf c' i')) (f : Buf (Elt F) ℓ) :
    (ℓ ↦[(Finset.univ : Finset (Fin 2)).biUnion fun c => (Finset.univ : Finset (Fin 16)).biUnion fun i => Kf c i]{fullShare} f : sProp 𝕄)
      = bigSep Finset.univ fun c : Fin 2 => bigSep Finset.univ fun i : Fin 16 => ℓ ↦[Kf c i]{fullShare} f := by
  have h1 : ∀ c ∈ (Finset.univ : Finset (Fin 2)), ∀ c' ∈ (Finset.univ : Finset (Fin 2)), c ≠ c' →
      Disjoint ((Finset.univ : Finset (Fin 16)).biUnion fun i => Kf c i) ((Finset.univ : Finset (Fin 16)).biUnion fun i => Kf c' i) :=
    fun c _ c' _ hcc => (Finset.disjoint_biUnion_left _ _ _).mpr fun i _ => (Finset.disjoint_biUnion_right _ _ _).mpr fun i' _ =>
      hd c i c' i' (fun e => hcc (Prod.mk.inj e).1)
  rw [pointsTo_biUnion Finset.univ _ h1]
  exact bigSep_congr fun c _ => pointsTo_biUnion Finset.univ _ fun i _ i' _ hii => hd c i c i' (fun e => hii (Prod.mk.inj e).2)

/-- The argument's bands together: plane 1. -/
abbrev inA : Finset S1024x4x2048.Idx := (Finset.univ : Finset (Fin 2)).biUnion fun c => (Finset.univ : Finset (Fin 16)).biUnion fun i => inK c i

omit [FloatOps F] in
theorem out_bands (d : Dev nD) (f : Buf (Elt F) (oLoc d)) :
    (oLoc d ↦{fullShare} f : sProp 𝕄) = bigSep Finset.univ fun c : Fin 2 => bigSep Finset.univ fun i : Fin 16 => oLoc d ↦[outK c i]{fullShare} f := by
  rw [← pts_bands (ℓ := oLoc d) outK outK_disjoint f, outK_cover]
omit [FloatOps F] in
theorem in_bands (d : Dev nD) (f : Buf (Elt F) (iLoc d)) :
    (iLoc d ↦[inA]{fullShare} f : sProp 𝕄) = bigSep Finset.univ fun c : Fin 2 => bigSep Finset.univ fun i : Fin 16 => iLoc d ↦[inK c i]{fullShare} f :=
  pts_bands (ℓ := iLoc d) inK inK_disjoint f

omit [FloatOps F] in
/-- The argument whole is plane 1 and the rest; the rest is never handed to a subcore. -/
theorem in_split (d : Dev nD) (f : Buf (Elt F) (iLoc d)) :
    (iLoc d ↦{fullShare} f : sProp 𝕄) ⊢ iprop((iLoc d ↦[inA]{fullShare} f) ∗ iLoc d ↦[Finset.univ \ inA]{fullShare} f) :=
  (pointsTo_split_subset (Finset.subset_univ _)).1
omit [FloatOps F] in
theorem in_join (d : Dev nD) (f : Buf (Elt F) (iLoc d)) :
    iprop((iLoc d ↦[inA]{fullShare} f) ∗ iLoc d ↦[Finset.univ \ inA]{fullShare} f) ⊢ (iLoc d ↦{fullShare} f : sProp 𝕄) :=
  (pointsTo_split_subset (Finset.subset_univ _)).2

theorem go_all (d : Dev nD) :
    (bigSep Finset.univ fun c : Fin 2 => bigSep Finset.univ fun i : Fin 16 => tileGo m d (Lof c i))
      = iprop((bigSep Finset.univ fun c : Fin 2 => bigSep Finset.univ fun i : Fin 16 => iLoc d ↦[inK c i]{fullShare} m (iLoc d))
          ∗ bigSep Finset.univ fun c : Fin 2 => bigSep Finset.univ fun i : Fin 16 => oLoc d ↦[outK c i]{fullShare} m (oLoc d)) := by
  unfold tileGo
  rw [← bigSep_sep']
  exact bigSep_congr fun c _ => bigSep_sep' _ _ _
theorem td_all (d : Dev nD) :
    (bigSep Finset.univ fun c : Fin 2 => bigSep Finset.univ fun i : Fin 16 => tileTd m d (Lof c i))
      = iprop((bigSep Finset.univ fun c : Fin 2 => bigSep Finset.univ fun i : Fin 16 => iLoc d ↦[inK c i]{fullShare} m (iLoc d))
          ∗ bigSep Finset.univ fun c : Fin 2 => bigSep Finset.univ fun i : Fin 16 => oLoc d ↦[outK c i]{fullShare} (Cert.Plane.slab (m (iLoc d)) : Buf (Elt F) (oLoc d))) := by
  unfold tileTd
  rw [← bigSep_sep']
  exact bigSep_congr fun c _ => bigSep_sep' _ _ _

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore: the call, then the unit axis dropped -/

abbrev in' : DevRef τ sig := Proc.devRef .tc (main_arg0 : Ref sig .tc)
abbrev out' : DevRef τ sig := Proc.devRef .tc (main_v0 : Ref sig .tc)
abbrev res' : DevRef τ sig := Proc.devRef .tc (main_v1 : Ref sig .tc)
abbrev opR : HloOp τ sig (Elt F) := StableHlo.reshape main_v0 main_v1 rfl Cert.KernelIdeal.Facts₀.shapeCasts_S1024x1x2048_S1024x2048

abbrev S3 : Finset (DevRef τ sig) := {in', out', res'}

omit [FloatOps F] in
theorem held_S3 (d : Dev nD) (W : Valuation τ sig (Elt F)) :
    (held (T d) S3 W : sProp 𝕄) = iprop((iLoc d ↦{fullShare} W in') ∗ (oLoc d ↦{fullShare} W out') ∗ rLoc d ↦{fullShare} W res') := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (oLoc d ↦{fullShare} W main_v0) ∗ rLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The launch valuation; after the call, the kernel's result at plane 1 of the argument. -/
def V0 (d : Dev nD) : Valuation τ sig (Elt F) := fun b => m (d, b)
def V1 (d : Dev nD) : Valuation τ sig (Elt F) := Function.update (V0 m d) out' (Cert.Plane.slab (m (iLoc d)) : Buf (Elt F) (oLoc d))

theorem V1_in (d : Dev nD) : V1 m d in' = m (iLoc d) := Function.update_of_ne (show in' ≠ out' by decide) _ _
theorem V1_out (d : Dev nD) : V1 m d out' = (Cert.Plane.slab (m (iLoc d)) : Buf (Elt F) (oLoc d)) := Function.update_self _ _ _
theorem V1_res (d : Dev nD) : V1 m d res' = V0 m d res' := Function.update_of_ne (show res' ≠ out' by decide) _ _

theorem hR : (opR (F := F)).bufs ⊆ S3 := show ({out', res'} : Finset (DevRef τ sig)) ⊆ S3 by decide

/-- What the recast leaves in @main's result. -/
abbrev resVal (d : Dev nD) : Buf (Elt F) (rLoc d) := (opR (F := F)).result (V1 m d) res'

theorem held_V2 (d : Dev nD) :
    (held (T d) S3 ((opR (F := F)).result (V1 m d)) : sProp 𝕄)
      = iprop((iLoc d ↦{fullShare} m (iLoc d)) ∗ (oLoc d ↦{fullShare} (opR (F := F)).result (V1 m d) out') ∗ rLoc d ↦{fullShare} resVal m d) := by
  rw [held_S3, (opR (F := F)).result_of_not_mem (V1 m d) (b := in') (show in' ∉ ({res'} : Finset (DevRef τ sig)) by decide), V1_in]

theorem st0_eq (d : Dev nD) : (bigSep Finset.univ fun c : Fin ((K (F := F)).nCore 0) => (P m).st 0 d c)
    = bigSep Finset.univ fun c : Fin 2 => bigSep Finset.univ fun i : Fin 16 => tileGo m d (Lof c i) := rfl
theorem dn0_eq (d : Dev nD) : (bigSep Finset.univ fun c : Fin ((K (F := F)).nCore 0) => (P m).dn 0 d c)
    = bigSep Finset.univ fun c : Fin 2 => bigSep Finset.univ fun i : Fin 16 => tileTd m d (Lof c i) := rfl

/-- What @main leaves the claim: the argument at its launch contents, the result at the recast of plane 1. -/
abbrev FIN (d : Dev nD) : sProp 𝕄 := iprop((iLoc d ↦{fullShare} m (iLoc d)) ∗ rLoc d ↦{fullShare} resVal m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Ho, Hr⟩, -, -⟩, -⟩
  -- the argument: plane 1 and the rest; plane 1 and the result, band by band
  ihave Hi2 := (in_split (F := F) d _) $$ Hi
  icases Hi2 with ⟨HiA, HiR⟩
  ihave HiB := (Entails.of_eq (in_bands (F := F) d _)) $$ HiA
  ihave HoB := (Entails.of_eq (out_bands (F := F) d _)) $$ Ho
  iapply ((K (F := F)).wp_run (D (F := F)) 𝒱 (EH := EH) (P := P m) κ d 0) $$ [Hst HiB HoB Hb Hr HiR]
  isplitr; · iexact Hctx
  isplitl [Hst]; · iexact Hst
  isplitl [HiB HoB]
  · rw [st0_eq, go_all]
    isplitl [HiB]; · iexact HiB
    iexact HoB
  iintro ⟨Hst, Hdn⟩
  ihave Hdn' := (Entails.of_eq ((dn0_eq m d).trans (td_all m d))) $$ Hdn
  icases Hdn' with ⟨HiB, HoB⟩
  ihave HiA := (Entails.of_eq (in_bands (F := F) d _).symm) $$ HiB
  ihave Ho := (Entails.of_eq (out_bands (F := F) d _).symm) $$ HoB
  ihave Hi := (in_join (F := F) d _) $$ [HiA HiR]
  · isplitl [HiA]; · iexact HiA
    iexact HiR
  -- the recast, over the kernel's result and @main's
  iapply (wp_hlo_within 𝒱 (SparseCore.T d) none Set.univ (op := opR) (S := S3) hR (V := V1 m d)) $$ [Hb Hi Ho Hr]
  · isplitl [Hb]; · iexact Hb
    rw [held_S3, V1_in, V1_out, V1_res]
    isplitl [Hi]; · iexact Hi
    isplitl [Ho]; · iexact Ho
    iexact Hr
  iintro ⟨Hb, Hheld⟩
  ihave Hh := (Entails.of_eq (held_V2 (F := F) m d)) $$ Hheld
  icases Hh with ⟨Hi, -, Hr⟩
  rw [wp_ret]; imodintro; imodintro
  isplitl [Hst]; · iexact Hst
  isplitl [Hi]; · iexact Hi
  iexact Hr

def fq (d : Dev nD) (s' : Phys nD τ sig (Elt F)) : Prop := s'.mem.mem (rLoc d) = resVal m d ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Hi, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (SI_pointsTo_agree (st := s') (ℓ := rLoc d) (I := Finset.univ) (q := fullShare) (f := resVal m d)) $$ [HSI Hr]
  · isplitl [HSI] <;> iassumption
  icases H with %h2
  ipureintro; exact ⟨funext fun i => h2 i (Finset.mem_univ i), funext fun i => h1 i (Finset.mem_univ i)⟩

/-! ## The recast's value, and the run -/

/-- Dropping the unit middle axis of plane 1 kept as a [1024, 1, 2048] array gives plane 1 as a [1024, 2048] array:
    entry (i, j) of the recast is entry (i, 0, j), the two having the same row-major position. -/
theorem resVal_eq (d : Dev nD) : resVal m d = (Cert.Plane.plane (m (iLoc d)) : Buf (Elt F) (rLoc d)) := by
  show (opR (F := F)).result (V1 m d) res' = _
  rw [StableHlo.reshape_result', V1_out]
  funext j
  rw [ValueIdx.eq_ix2 j]
  exact Cert.LibFlattenRows.shapeCast_abc_nc_apply (a := 1024) (b := 1) (c := 2048) (n := 1024) _ _ (j 0) 0 (j 1) (j 0) (by simp)

def QC : PUnit × MemSt nD τ sig (Elt F) → Prop := fun r => ∀ c : Dev nD,
  r.2.mem (rLoc c) = (Cert.Plane.plane (m (iLoc c)) : Buf (Elt F) (rLoc c)) ∧ r.2.mem (iLoc c) = m (iLoc c)

/-- Every weakly fair execution of the device's threads ends, nothing faulting, with @main's result at plane 1 of
    the argument and the argument unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).1.trans (resVal_eq m c), (h c).2⟩)

end Cert.KernelIdeal.Split

end
-- ==== Proof.SplitBits.lean ====
/-
  The kernel side. Thirty-two vector subcores (SparseCore c in {0, 1}, subcore s in 0..15) each move one band of
  32 rows: worker w = 2 s + c copies rows [32 w, 32 w + 32) of plane 1 of the [1024, 4, 2048] argument into its own
  [32, 1, 2048] scratch, waits, copies the scratch onto rows [32 w, 32 w + 32) of the [1024, 1, 2048] result, waits.
  The bands are pairwise disjoint and cover all 1024 rows, so the result array ends as plane 1 of the argument
  with its unit middle axis kept (`Cert.Plane.slab`); the host then drops the unit axis, a row-major recast, which
  gives `Cert.Plane.plane`. Every copy is waited for before the next is issued and no two subcores touch a common
  element, so the value does not depend on the interleaving. Stated for any float instance: nothing is computed.
-/
import proofs.«202682_g7335804141591_cont_9to1_m_868_12_alg».proof.Kernel
import Idealize.ShloMosaic.Lib.SparseCore.Launch
import Idealize.ShloMosaic.Lib.StableHlo.Run
import Idealize.ShloMosaic.Lib.Pipeline.Kit
import Idealize.ShloMosaic.Lib.Tactic
import proofs.«202682_g7335804141591_cont_9to1_m_868_12_alg».proof.Proof.Gen.Kernel
import proofs.«202682_g7335804141591_cont_9to1_m_868_12_alg».proof.Proof.Gen.Kernel.Skeleton
import proofs.«202682_g7335804141591_cont_9to1_m_868_12_alg».proof.Proof.Plane
import proofs.«202682_g7335804141591_cont_9to1_m_868_12_alg».proof.Proof.LibLandedWhole
import proofs.«202682_g7335804141591_cont_9to1_m_868_12_alg».proof.Proof.LibFlattenRows

noncomputable section

namespace Cert.Kernel.Split

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

local notation "inW" => (Memref.whole Cert.Kernel.main_arg0_scv : Memref Cert.Kernel.sig Kind.scVector Space.hbm Cert.Kernel.S1024x4x2048 EltTy.f32)
local notation "outW" => (Memref.whole Cert.Kernel.main_v0_scv : Memref Cert.Kernel.sig Kind.scVector Space.hbm Cert.Kernel.S1024x1x2048 EltTy.f32)
local notation "scrW" => (Memref.whole Cert.Kernel.cc0_scratch0 : Memref Cert.Kernel.sig Kind.scVector Space.vmem Cert.Kernel.S32x1x2048 EltTy.f32)

/-- The argument, the kernel's result with its unit middle axis, and @main's result, as locations of device `d`. -/
abbrev iLoc (d : Dev nD) : Loc nD τ sig := (SparseCore.T d).loc main_arg0
abbrev oLoc (d : Dev nD) : Loc nD τ sig := (SparseCore.T d).loc main_v0
abbrev rLoc (d : Dev nD) : Loc nD τ sig := (SparseCore.T d).loc main_v1

variable [FloatOps F]

/-! ## One subcore's band -/

section Tile

variable (d : Dev nD) (L : grid0.Coords)

abbrev cV (L : grid0.Coords) : Fin τ.nSC := (L 0).castLE hcore0
abbrev jV (L : grid0.Coords) : Fin τ.nSub := (L 1).castLE hsub0

/-- The band of the argument the subcore at `L` reads: 32 rows of plane 1; and the band of the result it writes. -/
abbrev inM (L : grid0.Coords) : Memref sig .scVector .hbm S32x1x2048 .f32 :=
  (inW).slice (Rect.unit (s := S1024x4x2048) (k0_off1 L) S32x1x2048.size (k0_off1_inb L)) (fun _ => rfl)
abbrev outM (L : grid0.Coords) : Memref sig .scVector .hbm S32x1x2048 .f32 :=
  (outW).slice (Rect.unit (s := S1024x1x2048) (k0_off2 L) S32x1x2048.size (k0_off2_inb L)) (fun _ => rfl)
abbrev inSet (L : grid0.Coords) : Finset S1024x4x2048.Idx := (inM L).view.set
abbrev outSet (L : grid0.Coords) : Finset S1024x1x2048.Idx := (outM L).view.set

/-- What a subcore is handed: its band of the argument and its band of the result, as launched; and what it hands
    back: the argument's band untouched, the result's band at plane 1 of the argument. -/
def tileGo (d : Dev nD) (L : grid0.Coords) : sProp 𝕄 :=
  iprop((iLoc d ↦[inSet L]{fullShare} m (iLoc d)) ∗ oLoc d ↦[outSet L]{fullShare} m (oLoc d))
def tileTd (d : Dev nD) (L : grid0.Coords) : sProp 𝕄 :=
  iprop((iLoc d ↦[inSet L]{fullShare} m (iLoc d)) ∗ oLoc d ↦[outSet L]{fullShare} (Cert.Plane.slab (m (iLoc d)) : Buf (Elt F) (oLoc d)))

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
/-- The subcore's two transfer semaphores are among its own cells. -/
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
/-- Its scratch is among its own buffers. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
theorem pts_in (f : Buf (Elt F) (iLoc d)) :
    ((inM L).view.loc (V d (cV L) (jV L)) ↦[(inM L).view.set]{fullShare} f : sProp 𝕄) = iLoc d ↦[inSet L]{fullShare} f := rfl
omit [FloatOps F] in
theorem pts_out (f : Buf (Elt F) (oLoc d)) :
    ((outM L).view.loc (V d (cV L) (jV L)) ↦[(outM L).view.set]{fullShare} f : sProp 𝕄) = oLoc d ↦[outSet L]{fullShare} f := rfl
omit [FloatOps F] in
theorem pts_scr (f : Buf (Elt F) ((V d (cV L) (jV L)).loc cc0_scratch0)) :
    ((scrW).view.loc (V d (cV L) (jV L)) ↦{fullShare} f : sProp 𝕄) = (V d (cV L) (jV L)).loc cc0_scratch0 ↦{fullShare} f := rfl

omit [FloatOps F] in
/-- Coordinate by coordinate, the element of the argument's band at `y` is the element of the result's band at `y`
    with the middle coordinate 1: both bands start at row 64 s + 32 c, the argument's on plane 1. -/
theorem emb_in_out (y : S32x1x2048.Idx) :
    (inM L).view.emb y = ValueIdx.ix3 (n0 := 1024) (n1 := 4) (n2 := 2048) ((outM L).view.emb y 0) 1 ((outM L).view.emb y 2) := by
  funext a; apply Fin.ext
  have h1 := k0_off1_eq L
  have h2 := k0_off2_eq L
  have e1 : ((inM L).view.emb y a : Nat) = k0_off1 L a + 1 * (y a : Nat) := rfl
  have e20 : ((outM L).view.emb y 0 : Nat) = k0_off2 L 0 + 1 * (y 0 : Nat) := rfl
  have e22 : ((outM L).view.emb y 2 : Nat) = k0_off2 L 2 + 1 * (y 2 : Nat) := rfl
  rw [e1, h1]
  match a with
  | ⟨0, _⟩ => show _ = ((outM L).view.emb y 0 : Nat); rw [e20, h2]; rfl
  | ⟨1, _⟩ => show _ = 1; have : (y 1 : Nat) = 0 := by have := (y 1).isLt; change (y 1 : Nat) < 1 at this; omega
              show 1 + 1 * (y 1 : Nat) = 1; omega
  | ⟨2, _⟩ => show _ = ((outM L).view.emb y 2 : Nat); rw [e22, h2]; rfl

omit [FloatOps F] in
/-- The result's band, after the argument's band has been landed on it whole, is plane 1 of the argument there. -/
theorem band_eq (g : Buf (Elt F) (oLoc d)) (X : S32x1x2048.Idx → Elt F .f32) (hX : X = (inM L).view.read (Elt F) (m (iLoc d))) :
    ((outM L).view.loc (V d (cV L) (jV L)) ↦[(outM L).view.set]{fullShare} (outM L).view.writes (Elt F) g [⟨Rect.whole S32x1x2048, X⟩] : sProp 𝕄)
      = (outM L).view.loc (V d (cV L) (jV L)) ↦[(outM L).view.set]{fullShare} (Cert.Plane.slab (m (iLoc d)) : Buf (Elt F) (oLoc d)) :=
  Cert.LibLandedWhole.pointsTo_writes_whole_congr (V d (cV L) (jV L)) (outM L).view fullShare g _ X fun y => by
    subst hX
    rw [View.read_apply, View.read_apply, emb_in_out]
    rfl

/-- One subcore's task: the argument's band into the scratch, the scratch onto the result's band, each copy waited
    for before anything else touches its ends. The argument's band comes back untouched, the result's band at
    plane 1 of the argument. -/
theorem tile_body (hF : (K (F := F)).Facts) (O : CellTallies nD τ sig (HIx 1)) (W : Waits sig (HIx 1)) (hO : ∀ g, O g none = 0) :
    iprop(levAts (K (F := F)).L (K (F := F)).lev ∗ emp ∗ tileGo m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__split L inW (Memref.isWhole_whole _) outW (Memref.isWhole_whole _) scrW (Memref.isWhole_whole _) cc0_scoped0 cc0_scoped1)
          fun _ => iprop(tileTd m d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__split_eq_skeleton]; unfold cc0__split_skel
  rw [(K (F := F)).scopedBufs_V hF d (cV L) (jV L), SparseCore.Cfg.scopedSems0_V (Val := Elt F) d (cV L) (jV L), ownSems0_V, ownBufs_V]
  unfold tileGo
  iintro ⟨#Hlv, -, ⟨Hi, Ho⟩, ⟨⟨%fs, Hs⟩, Hbufs⟩, ⟨HsemA, HsemB, Hsems⟩, HO⟩
  ihave Hmw := ((K (F := F)).mayWaits_none (thr := V d (cV L) (jV L)) hO) $$ Hlv
  ihave Hi' := (Entails.of_eq (pts_in (F := F) d L _).symm) $$ Hi
  ihave Ho' := (Entails.of_eq (pts_out (F := F) d L _).symm) $$ Ho
  ihave Hs' := (Entails.of_eq (pts_scr (F := F) d L _).symm) $$ Hs
  sl_exec
  -- what the second copy carried is what the first one read: the argument's band
  have hX : tile_body.sl.dma0_1 m d L fs = (inM L).view.read (Elt F) (m (iLoc d)) := by
    sl_unfold_run_names
    simp only [Memref.view_whole, View.write_whole_univ, View.read_whole]
  sl_step
  unfold tileTd
  isplitl [Hi' Ho']
  · isplitl [Hi']
    · iexact Hi'
    · iapply (Entails.of_eq (band_eq m d L _ _ hX)); iexact Ho'
  isplitl [Hs' Hbufs]
  · isplitl [Hs']
    · iexists _; iexact Hs'
    · iexact Hbufs
  isplitl [HsemA HsemB Hsems]
  · isplitl [HsemA]; · iexact HsemA
    isplitl [HsemB]; · iexact HsemB
    iexact Hsems
  iexists (insert (SemLoc.dma cc0_scoped1.sem, (default : HIx 1)) (insert (SemLoc.dma cc0_scoped0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

/-- The grid point of SparseCore `c`, subcore `i`. -/
abbrev Lof (c : Fin 2) (i : Fin 16) : grid0.Coords := coordsV ⟨c.val, c.isLt⟩ ⟨i.val, i.isLt⟩

theorem defs₀_vector (c : Fin τ.nSC) (s : Fin τ.nSub) :
    defs₀ (F := F) (.scVector c s) 0 ()
      = SparseCore.onTile hcore0 hsub0 (fun c s => cc0__split (coordsV c s)
          inW (Memref.isWhole_whole _) outW (Memref.isWhole_whole _) scrW (Memref.isWhole_whole _) cc0_scoped0 cc0_scoped1) ⟨⟩ c s := rfl

instance tileGo_storable (d : Dev nD) (L : grid0.Coords) : BI.Storable (upEmb : UEmb _ 𝕄) (tileGo m d L) := by
  unfold tileGo; infer_instance
instance tileTd_storable (d : Dev nD) (L : grid0.Coords) : BI.Storable (upEmb : UEmb _ 𝕄) (tileTd m d L) := by
  unfold tileTd; infer_instance

/-- The call hands SparseCore `c` its sixteen subcores' bands, each subcore its own; and takes them back landed. -/
def P : (K (F := F)).Pay (nD := nD) (Val := Elt F) (Name := ℕ) (U := UU) where
  st := fun q d c => match q with | 0 => bigSep Finset.univ fun i : Fin 16 => tileGo m d (Lof c i)
  dn := fun q d c => match q with | 0 => bigSep Finset.univ fun i : Fin 16 => tileTd m d (Lof c i)
  go := fun q d c i => match q with | 0 => tileGo m d (Lof c i)
  td := fun q d c i => match q with | 0 => tileTd m d (Lof c i)
  x := fun _ _ => iprop(emp)

instance P_storable : (P (F := F) m).IsStorable where
  st q d c := match q with | 0 => (inferInstance : BI.Storable (upEmb : UEmb _ 𝕄) (bigSep Finset.univ fun i : Fin 16 => tileGo m d (Lof c i)))
  dn q d c := match q with | 0 => (inferInstance : BI.Storable (upEmb : UEmb _ 𝕄) (bigSep Finset.univ fun i : Fin 16 => tileTd m d (Lof c i)))
  go q d c i := match q with | 0 => (inferInstance : BI.Storable (upEmb : UEmb _ 𝕄) (tileGo m d (Lof c i)))
  td q d c i := match q with | 0 => (inferInstance : BI.Storable (upEmb : UEmb _ 𝕄) (tileTd m d (Lof c i)))

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- A SparseCore's operands ARE its subcores' bands, and its results theirs: nothing to regroup. -/
theorem vecSplit : (K (F := F)).VecSplit' (P m) 0 := by
  intro d c
  show (bigSep Finset.univ fun i : Fin 16 => tileGo m d (Lof c i)) ⊢ |={Set.univ}=> iprop(
      (bigSep Finset.univ fun i : Fin 16 => tileGo m d (Lof c i))
      ∗ ((bigSep Finset.univ fun i : Fin 16 => tileTd m d (Lof c i)) -∗ (bigSep Finset.univ fun i : Fin 16 => tileTd m d (Lof c i))))
  iintro H; imodintro
  isplitl [H]; · iexact H
  iintro H; iexact H

/-! ## The bands: pairwise disjoint; the result's cover every row -/

abbrev inK (c : Fin 2) (i : Fin 16) : Finset S1024x4x2048.Idx := inSet (Lof c i)
abbrev outK (c : Fin 2) (i : Fin 16) : Finset S1024x1x2048.Idx := outSet (Lof c i)

omit [FloatOps F] in
theorem off1_Lof (c : Fin 2) (i : Fin 16) : k0_off1 (Lof c i) = ![64 * i.val + 32 * c.val, 1, 0] := k0_off1_eq (Lof c i)
omit [FloatOps F] in
theorem off2_Lof (c : Fin 2) (i : Fin 16) : k0_off2 (Lof c i) = ![64 * i.val + 32 * c.val, 0, 0] := k0_off2_eq (Lof c i)

omit [FloatOps F] in
/-- Two different subcores' first rows are at least 32 apart: worker 2 s + c starts at row 32 (2 s + c). -/
theorem rows_apart {c c' : Fin 2} {i i' : Fin 16} (h : (c, i) ≠ (c', i')) :
    64 * i.val + 32 * c.val + 32 ≤ 64 * i'.val + 32 * c'.val ∨ 64 * i'.val + 32 * c'.val + 32 ≤ 64 * i.val + 32 * c.val := by
  have hc := c.isLt; have hc' := c'.isLt
  have : c.val ≠ c'.val ∨ i.val ≠ i'.val := by
    by_contra hcon; push Not at hcon; exact h (Prod.ext (Fin.ext hcon.1) (Fin.ext hcon.2))
  omega

omit [FloatOps F] in
/-- A band is the element set of its rectangle: 32 rows from its first row, the whole of the other two axes' extents. -/
theorem outK_eq (c : Fin 2) (i : Fin 16) :
    outK c i = (Rect.unit (s := S1024x1x2048) (k0_off2 (Lof c i)) S32x1x2048.size (k0_off2_inb (Lof c i))).set := by
  show (outM (Lof c i)).view.set = _
  simp only [Memref.view_slice, Memref.view_whole, View.set_slice_whole]
omit [FloatOps F] in
theorem inK_eq (c : Fin 2) (i : Fin 16) :
    inK c i = (Rect.unit (s := S1024x4x2048) (k0_off1 (Lof c i)) S32x1x2048.size (k0_off1_inb (Lof c i))).set := by
  show (inM (Lof c i)).view.set = _
  simp only [Memref.view_slice, Memref.view_whole, View.set_slice_whole]

omit [FloatOps F] in
theorem outK_disjoint (c : Fin 2) (i : Fin 16) (c' : Fin 2) (i' : Fin 16) (h : (c, i) ≠ (c', i')) : Disjoint (outK c i) (outK c' i') := by
  rw [outK_eq, outK_eq]
  refine Rect.unit_disjoint 0 ?_
  rw [off2_Lof, off2_Lof]
  exact rows_apart h

omit [FloatOps F] in
theorem inK_disjoint (c : Fin 2) (i : Fin 16) (c' : Fin 2) (i' : Fin 16) (h : (c, i) ≠ (c', i')) : Disjoint (inK c i) (inK c' i') := by
  rw [inK_eq, inK_eq]
  refine Rect.unit_disjoint 0 ?_
  rw [off1_Lof, off1_Lof]
  exact rows_apart h

omit [FloatOps F] in
/-- Row r of the result lies in the band of subcore s = r / 64 of SparseCore c = (r / 32) mod 2. -/
theorem outK_cover : ((Finset.univ : Finset (Fin 2)).biUnion fun c => (Finset.univ : Finset (Fin 16)).biUnion fun i => outK c i) = Finset.univ := by
  ext x
  simp only [Finset.mem_biUnion, Finset.mem_univ, true_and, iff_true]
  have hx : (x 0).val < 1024 := (x 0).isLt
  refine ⟨⟨(x 0).val / 32 % 2, by omega⟩, ⟨(x 0).val / 64, by omega⟩, ?_⟩
  rw [outK_eq, Rect.mem_set_unit, off2_Lof]
  intro a
  match a with
  | ⟨0, _⟩ =>
    show 64 * ((x 0).val / 64) + 32 * ((x 0).val / 32 % 2) ≤ (x 0).val ∧ (x 0).val < 64 * ((x 0).val / 64) + 32 * ((x 0).val / 32 % 2) + 32
    omega
  | ⟨1, _⟩ =>
    have h1 : (x 1).val < 1 := (x 1).isLt
    show 0 ≤ (x 1).val ∧ (x 1).val < 0 + 1
    omega
  | ⟨2, _⟩ =>
    have h2 : (x 2).val < 2048 := (x 2).isLt
    show 0 ≤ (x 2).val ∧ (x 2).val < 0 + 2048
    omega

omit [FloatOps F] in
/-- A points-to on the union of a family of pairwise disjoint bands, one per (SparseCore, subcore), is the bands'. -/
theorem pts_bands {ℓ : Loc nD τ sig} (Kf : Fin 2 → Fin 16 → Finset (Idx ℓ))
    (hd : ∀ c i c' i', (c, i) ≠ (c', i') → Disjoint (Kf c i) (Kf c' i')) (f : Buf (Elt F) ℓ) :
    (ℓ ↦[(Finset.univ : Finset (Fin 2)).biUnion fun c => (Finset.univ : Finset (Fin 16)).biUnion fun i => Kf c i]{fullShare} f : sProp 𝕄)
      = bigSep Finset.univ fun c : Fin 2 => bigSep Finset.univ fun i : Fin 16 => ℓ ↦[Kf c i]{fullShare} f := by
  have h1 : ∀ c ∈ (Finset.univ : Finset (Fin 2)), ∀ c' ∈ (Finset.univ : Finset (Fin 2)), c ≠ c' →
      Disjoint ((Finset.univ : Finset (Fin 16)).biUnion fun i => Kf c i) ((Finset.univ : Finset (Fin 16)).biUnion fun i => Kf c' i) :=
    fun c _ c' _ hcc => (Finset.disjoint_biUnion_left _ _ _).mpr fun i _ => (Finset.disjoint_biUnion_right _ _ _).mpr fun i' _ =>
      hd c i c' i' (fun e => hcc (Prod.mk.inj e).1)
  rw [pointsTo_biUnion Finset.univ _ h1]
  exact bigSep_congr fun c _ => pointsTo_biUnion Finset.univ _ fun i _ i' _ hii => hd c i c i' (fun e => hii (Prod.mk.inj e).2)

/-- The argument's bands together: plane 1. -/
abbrev inA : Finset S1024x4x2048.Idx := (Finset.univ : Finset (Fin 2)).biUnion fun c => (Finset.univ : Finset (Fin 16)).biUnion fun i => inK c i

omit [FloatOps F] in
theorem out_bands (d : Dev nD) (f : Buf (Elt F) (oLoc d)) :
    (oLoc d ↦{fullShare} f : sProp 𝕄) = bigSep Finset.univ fun c : Fin 2 => bigSep Finset.univ fun i : Fin 16 => oLoc d ↦[outK c i]{fullShare} f := by
  rw [← pts_bands (ℓ := oLoc d) outK outK_disjoint f, outK_cover]
omit [FloatOps F] in
theorem in_bands (d : Dev nD) (f : Buf (Elt F) (iLoc d)) :
    (iLoc d ↦[inA]{fullShare} f : sProp 𝕄) = bigSep Finset.univ fun c : Fin 2 => bigSep Finset.univ fun i : Fin 16 => iLoc d ↦[inK c i]{fullShare} f :=
  pts_bands (ℓ := iLoc d) inK inK_disjoint f

omit [FloatOps F] in
/-- The argument whole is plane 1 and the rest; the rest is never handed to a subcore. -/
theorem in_split (d : Dev nD) (f : Buf (Elt F) (iLoc d)) :
    (iLoc d ↦{fullShare} f : sProp 𝕄) ⊢ iprop((iLoc d ↦[inA]{fullShare} f) ∗ iLoc d ↦[Finset.univ \ inA]{fullShare} f) :=
  (pointsTo_split_subset (Finset.subset_univ _)).1
omit [FloatOps F] in
theorem in_join (d : Dev nD) (f : Buf (Elt F) (iLoc d)) :
    iprop((iLoc d ↦[inA]{fullShare} f) ∗ iLoc d ↦[Finset.univ \ inA]{fullShare} f) ⊢ (iLoc d ↦{fullShare} f : sProp 𝕄) :=
  (pointsTo_split_subset (Finset.subset_univ _)).2

theorem go_all (d : Dev nD) :
    (bigSep Finset.univ fun c : Fin 2 => bigSep Finset.univ fun i : Fin 16 => tileGo m d (Lof c i))
      = iprop((bigSep Finset.univ fun c : Fin 2 => bigSep Finset.univ fun i : Fin 16 => iLoc d ↦[inK c i]{fullShare} m (iLoc d))
          ∗ bigSep Finset.univ fun c : Fin 2 => bigSep Finset.univ fun i : Fin 16 => oLoc d ↦[outK c i]{fullShare} m (oLoc d)) := by
  unfold tileGo
  rw [← bigSep_sep']
  exact bigSep_congr fun c _ => bigSep_sep' _ _ _
theorem td_all (d : Dev nD) :
    (bigSep Finset.univ fun c : Fin 2 => bigSep Finset.univ fun i : Fin 16 => tileTd m d (Lof c i))
      = iprop((bigSep Finset.univ fun c : Fin 2 => bigSep Finset.univ fun i : Fin 16 => iLoc d ↦[inK c i]{fullShare} m (iLoc d))
          ∗ bigSep Finset.univ fun c : Fin 2 => bigSep Finset.univ fun i : Fin 16 => oLoc d ↦[outK c i]{fullShare} (Cert.Plane.slab (m (iLoc d)) : Buf (Elt F) (oLoc d))) := by
  unfold tileTd
  rw [← bigSep_sep']
  exact bigSep_congr fun c _ => bigSep_sep' _ _ _

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore: the call, then the unit axis dropped -/

abbrev in' : DevRef τ sig := Proc.devRef .tc (main_arg0 : Ref sig .tc)
abbrev out' : DevRef τ sig := Proc.devRef .tc (main_v0 : Ref sig .tc)
abbrev res' : DevRef τ sig := Proc.devRef .tc (main_v1 : Ref sig .tc)
abbrev opR : HloOp τ sig (Elt F) := StableHlo.reshape main_v0 main_v1 rfl Cert.Kernel.Facts₀.shapeCasts_S1024x1x2048_S1024x2048

abbrev S3 : Finset (DevRef τ sig) := {in', out', res'}

omit [FloatOps F] in
theorem held_S3 (d : Dev nD) (W : Valuation τ sig (Elt F)) :
    (held (T d) S3 W : sProp 𝕄) = iprop((iLoc d ↦{fullShare} W in') ∗ (oLoc d ↦{fullShare} W out') ∗ rLoc d ↦{fullShare} W res') := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (oLoc d ↦{fullShare} W main_v0) ∗ rLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The launch valuation; after the call, the kernel's result at plane 1 of the argument. -/
def V0 (d : Dev nD) : Valuation τ sig (Elt F) := fun b => m (d, b)
def V1 (d : Dev nD) : Valuation τ sig (Elt F) := Function.update (V0 m d) out' (Cert.Plane.slab (m (iLoc d)) : Buf (Elt F) (oLoc d))

theorem V1_in (d : Dev nD) : V1 m d in' = m (iLoc d) := Function.update_of_ne (show in' ≠ out' by decide) _ _
theorem V1_out (d : Dev nD) : V1 m d out' = (Cert.Plane.slab (m (iLoc d)) : Buf (Elt F) (oLoc d)) := Function.update_self _ _ _
theorem V1_res (d : Dev nD) : V1 m d res' = V0 m d res' := Function.update_of_ne (show res' ≠ out' by decide) _ _

theorem hR : (opR (F := F)).bufs ⊆ S3 := show ({out', res'} : Finset (DevRef τ sig)) ⊆ S3 by decide

/-- What the recast leaves in @main's result. -/
abbrev resVal (d : Dev nD) : Buf (Elt F) (rLoc d) := (opR (F := F)).result (V1 m d) res'

theorem held_V2 (d : Dev nD) :
    (held (T d) S3 ((opR (F := F)).result (V1 m d)) : sProp 𝕄)
      = iprop((iLoc d ↦{fullShare} m (iLoc d)) ∗ (oLoc d ↦{fullShare} (opR (F := F)).result (V1 m d) out') ∗ rLoc d ↦{fullShare} resVal m d) := by
  rw [held_S3, (opR (F := F)).result_of_not_mem (V1 m d) (b := in') (show in' ∉ ({res'} : Finset (DevRef τ sig)) by decide), V1_in]

theorem st0_eq (d : Dev nD) : (bigSep Finset.univ fun c : Fin ((K (F := F)).nCore 0) => (P m).st 0 d c)
    = bigSep Finset.univ fun c : Fin 2 => bigSep Finset.univ fun i : Fin 16 => tileGo m d (Lof c i) := rfl
theorem dn0_eq (d : Dev nD) : (bigSep Finset.univ fun c : Fin ((K (F := F)).nCore 0) => (P m).dn 0 d c)
    = bigSep Finset.univ fun c : Fin 2 => bigSep Finset.univ fun i : Fin 16 => tileTd m d (Lof c i) := rfl

/-- What @main leaves the claim: the argument at its launch contents, the result at the recast of plane 1. -/
abbrev FIN (d : Dev nD) : sProp 𝕄 := iprop((iLoc d ↦{fullShare} m (iLoc d)) ∗ rLoc d ↦{fullShare} resVal m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Ho, Hr⟩, -, -⟩, -⟩
  -- the argument: plane 1 and the rest; plane 1 and the result, band by band
  ihave Hi2 := (in_split (F := F) d _) $$ Hi
  icases Hi2 with ⟨HiA, HiR⟩
  ihave HiB := (Entails.of_eq (in_bands (F := F) d _)) $$ HiA
  ihave HoB := (Entails.of_eq (out_bands (F := F) d _)) $$ Ho
  iapply ((K (F := F)).wp_run (D (F := F)) 𝒱 (EH := EH) (P := P m) κ d 0) $$ [Hst HiB HoB Hb Hr HiR]
  isplitr; · iexact Hctx
  isplitl [Hst]; · iexact Hst
  isplitl [HiB HoB]
  · rw [st0_eq, go_all]
    isplitl [HiB]; · iexact HiB
    iexact HoB
  iintro ⟨Hst, Hdn⟩
  ihave Hdn' := (Entails.of_eq ((dn0_eq m d).trans (td_all m d))) $$ Hdn
  icases Hdn' with ⟨HiB, HoB⟩
  ihave HiA := (Entails.of_eq (in_bands (F := F) d _).symm) $$ HiB
  ihave Ho := (Entails.of_eq (out_bands (F := F) d _).symm) $$ HoB
  ihave Hi := (in_join (F := F) d _) $$ [HiA HiR]
  · isplitl [HiA]; · iexact HiA
    iexact HiR
  -- the recast, over the kernel's result and @main's
  iapply (wp_hlo_within 𝒱 (SparseCore.T d) none Set.univ (op := opR) (S := S3) hR (V := V1 m d)) $$ [Hb Hi Ho Hr]
  · isplitl [Hb]; · iexact Hb
    rw [held_S3, V1_in, V1_out, V1_res]
    isplitl [Hi]; · iexact Hi
    isplitl [Ho]; · iexact Ho
    iexact Hr
  iintro ⟨Hb, Hheld⟩
  ihave Hh := (Entails.of_eq (held_V2 (F := F) m d)) $$ Hheld
  icases Hh with ⟨Hi, -, Hr⟩
  rw [wp_ret]; imodintro; imodintro
  isplitl [Hst]; · iexact Hst
  isplitl [Hi]; · iexact Hi
  iexact Hr

def fq (d : Dev nD) (s' : Phys nD τ sig (Elt F)) : Prop := s'.mem.mem (rLoc d) = resVal m d ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Hi, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (SI_pointsTo_agree (st := s') (ℓ := rLoc d) (I := Finset.univ) (q := fullShare) (f := resVal m d)) $$ [HSI Hr]
  · isplitl [HSI] <;> iassumption
  icases H with %h2
  ipureintro; exact ⟨funext fun i => h2 i (Finset.mem_univ i), funext fun i => h1 i (Finset.mem_univ i)⟩

/-! ## The recast's value, and the run -/

/-- Dropping the unit middle axis of plane 1 kept as a [1024, 1, 2048] array gives plane 1 as a [1024, 2048] array:
    entry (i, j) of the recast is entry (i, 0, j), the two having the same row-major position. -/
theorem resVal_eq (d : Dev nD) : resVal m d = (Cert.Plane.plane (m (iLoc d)) : Buf (Elt F) (rLoc d)) := by
  show (opR (F := F)).result (V1 m d) res' = _
  rw [StableHlo.reshape_result', V1_out]
  funext j
  rw [ValueIdx.eq_ix2 j]
  exact Cert.LibFlattenRows.shapeCast_abc_nc_apply (a := 1024) (b := 1) (c := 2048) (n := 1024) _ _ (j 0) 0 (j 1) (j 0) (by simp)

def QC : PUnit × MemSt nD τ sig (Elt F) → Prop := fun r => ∀ c : Dev nD,
  r.2.mem (rLoc c) = (Cert.Plane.plane (m (iLoc c)) : Buf (Elt F) (rLoc c)) ∧ r.2.mem (iLoc c) = m (iLoc c)

/-- Every weakly fair execution of the device's threads ends, nothing faulting, with @main's result at plane 1 of
    the argument and the argument unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).1.trans (resVal_eq m c), (h c).2⟩)

end Cert.Kernel.Split

end
-- ==== Proof.RefRun.lean ====
/-
  The reference program's run. Its @main is one constant and a call of a function
  that itself calls another; unfolded at the calls it is a straight line of twenty-one host operations
  over the buffers the calls name. Every weakly fair execution of it terminates with the result buffer at
  the operations' composed term of the argument's launch contents and the argument unchanged; that term
  is plane 1 of the argument along its middle axis, because the index the program computes is the
  constant 1, the in-range mask it computes is all ones, and the gather at index 1 with the middle axis
  collapsed reads entry (i, 1, j) at (i, j).
-/
import proofs.«202682_g7335804141591_cont_9to1_m_868_12_alg».proof.ReferenceIdeal
import proofs.«202682_g7335804141591_cont_9to1_m_868_12_alg».proof.Proof.Gen.ReferenceIdeal
import proofs.«202682_g7335804141591_cont_9to1_m_868_12_alg».proof.Proof.Plane
import Idealize.ShloMosaic.Lib.StableHlo.Run
import Idealize.ShloMosaic.Lib.ValueIdx

noncomputable section

namespace Cert.RefRun

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-! ## The program as a straight line -/

/-- @main's operations in order, the calls unfolded: the index constant 1; then the outlined take's
    twenty, over the call's buffers — the zero and the signed comparison "index < 0", the axis size 4 and
    the sum "index + 4", the inner call's one select between them (the index normalized), its broadcast
    to one element, the upper bound 3, the conversion (the identity), the lower bound 0 and its
    broadcast, the two range comparisons and their conjunction, the constant true and the conjunction's
    reduction over the one element (the mask), the gather, the mask's broadcast, the fill constant and
    its broadcast, and the select between the gathered array and the fill. -/
abbrev ops : List (HloOp τ sig (Elt F)) :=
  [ nullary main_c (constantI S_ 32 1#32),
    TRef.nullary main_call0.c (constantI S_ 32 0#32),
    TRef.binary (.of main_c) main_call0.c main_call0.v0 (cmpi .slt),
    TRef.nullary main_call0.c_0 (constantI S_ 32 4#32),
    TRef.binary (.of main_c) main_call0.c_0 main_call0.v1 addi,
    TRef.ternary main_call0.v0 main_call0.v1 (.of main_c) main_call0.call0.v0 select,
    TRef.unary main_call0.call0.v0 main_call0.v3 (broadcastInDim S1 ![] bcast_S_S1),
    TRef.nullary main_call0.c_1 (constantI S1 32 3#32),
    TRef.unary main_call0.v3 main_call0.v4 id,
    TRef.nullary main_call0.c_2 (constantI S_ 32 0#32),
    TRef.unary main_call0.c_2 main_call0.v5 (broadcastInDim S1 ![] bcast_S_S1),
    TRef.binary main_call0.v4 main_call0.v5 main_call0.v6 (cmpi .sge),
    TRef.binary main_call0.v4 main_call0.c_1 main_call0.v7 (cmpi .sle),
    TRef.binary main_call0.v6 main_call0.v7 main_call0.v8 andi,
    TRef.nullary main_call0.c_3 (constantI S_ 1 1#1),
    TRef.binary main_call0.v8 main_call0.c_3 main_call0.v9 (fun x v => Host.reduce IntOp.andi x v reducesTo_S1_S_d0 h_S_),
    TRef.binary (.of main_arg0) main_call0.v4 main_call0.v10 (fun x i => Host.gather gather_S1024x4x2048_S1_S1024x2048_01_1_n_n_1_0_102412048 x i),
    TRef.unary main_call0.v9 main_call0.v11 (broadcastInDim S1024x2048 ![] bcast_S_S1024x2048),
    TRef.nullary main_call0.cst (constant S_ .f32 0x7FC00000#32),
    TRef.unary main_call0.cst main_call0.v12 (broadcastInDim S1024x2048 ![] bcast_S_S1024x2048),
    TRef.ternary main_call0.v11 main_call0.v10 main_call0.v12 main_call0.v13 select ]

/-- @main is that straight line: the two functions' definitions unfolded at their calls, both sides are one
    chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., binary_bufs_sub .., nullary_bufs_sub .., binary_bufs_sub ..,
    ternary_bufs_sub .., unary_bufs_sub .., nullary_bufs_sub .., unary_bufs_sub .., nullary_bufs_sub ..,
    unary_bufs_sub .., binary_bufs_sub .., binary_bufs_sub .., binary_bufs_sub .., nullary_bufs_sub ..,
    binary_bufs_sub .., binary_bufs_sub .., unary_bufs_sub .., nullary_bufs_sub .., unary_bufs_sub ..,
    ternary_bufs_sub ..⟩

/-- From any memory with zero counters every weakly fair execution of @main on the TensorCores terminates, and
    every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result buffer's term -/

/-- The index the program computes, as a one-element array: the constant 1, with the axis size 4 added were it
    negative as a signed integer. -/
def idx : IVec S1 32 :=
  id (broadcastInDim S1 ![] bcast_S_S1
    (select (cmpi .slt (constantI S_ 32 1#32) (constantI S_ 32 0#32))
      (addi (constantI S_ 32 1#32) (constantI S_ 32 4#32)) (constantI S_ 32 1#32)))

/-- The in-range mask the program computes, a scalar: "0 ≤ index" and "index ≤ 3", reduced by conjunction over the
    index's one element from the constant true. -/
def mask : IVec S_ 1 :=
  Host.reduce IntOp.andi
    (andi (cmpi .sge idx (broadcastInDim S1 ![] bcast_S_S1 (constantI S_ 32 0#32))) (cmpi .sle idx (constantI S1 32 3#32)))
    (constantI S_ 1 1#1) reducesTo_S1_S_d0 h_S_

/-- The result as the operations' composed term of the argument: the gather at the index where the mask is set, the
    fill constant elsewhere. -/
def out (x : FVec F S1024x4x2048 .f32) : FVec F S1024x2048 .f32 :=
  select (broadcastInDim S1024x2048 ![] bcast_S_S1024x2048 mask)
    (Host.gather gather_S1024x4x2048_S1_S1024x2048_01_1_n_n_1_0_102412048 x idx)
    (broadcastInDim S1024x2048 ![] bcast_S_S1024x2048 (constant S_ .f32 0x7FC00000#32))

attribute [local irreducible] Host.reduce Host.gather in
set_option maxRecDepth 8192 in
/-- The fold at the result buffer is that term of the argument's contents, by computation: the fold unrolled, each
    operation's result decides whether the buffer read is the one it writes, and the typed references' transports are
    the identity at these literal references. The reduction and the gather are kept folded meanwhile: their bodies are
    a fold and a search over the operand's elements, and the equation never looks inside them. -/
theorem after_v0 (V : Valuation τ sig (Elt F)) :
    after ops V (main_v0 : DevRef τ sig) = out (V (main_arg0 : DevRef τ sig)) := by
  simp only [after_cons, after_nil]
  rfl

/-- No operation writes the argument. -/
theorem after_arg0 (V : Valuation τ sig (Elt F)) :
    after ops V (main_arg0 : DevRef τ sig) = V (main_arg0 : DevRef τ sig) := by
  after_results

/-! ## The term is plane 1 of the argument -/

/-- The index is 1: as a signed integer 1 is not below 0, so the select keeps it. -/
theorem idx_apply (i : S1.Idx) : idx i = 1#32 := by
  show Scalar.select (IntOp.cmpi .slt 1#32 0#32) (IntOp.addi 1#32 4#32) 1#32 = 1#32
  decide

/-- A conjunction of ones from one is one, whatever the list folded over. -/
theorem foldl_andi_one {β : Type} (l : List β) : l.foldl (fun r _ => IntOp.andi r 1#1) 1#1 = 1#1 := by
  induction l with
  | nil => rfl
  | cons a l ih =>
    rw [List.foldl_cons, show IntOp.andi 1#1 1#1 = 1#1 from by decide]
    exact ih

/-- The mask is set: 0 ≤ 1 and 1 ≤ 3 as signed integers, at the index's one element, and the reduction is a
    conjunction of those ones from the constant true. -/
theorem mask_apply (k : S_.Idx) : mask k = 1#1 := by
  have hx : andi (cmpi .sge idx (broadcastInDim S1 ![] bcast_S_S1 (constantI S_ 32 0#32))) (cmpi .sle idx (constantI S1 32 3#32))
      = fun _ => 1#1 := by
    funext i
    show IntOp.andi (IntOp.cmpi .sge (idx i) 0#32) (IntOp.cmpi .sle (idx i) 3#32) = 1#1
    rw [idx_apply]
    decide
  unfold mask Host.reduce
  rw [hx]
  exact foldl_andi_one _

/-- The gather's dimension numbers, under a short name. -/
abbrev gd : GatherDims S1024x4x2048 S1 S1024x2048 := gather_S1024x4x2048_S1_S1024x2048_01_1_n_n_1_0_102412048

/-- The operand index the gather reads at `(i, j)`, on the first axis: `i`. The axis is kept, not in the start index
    map and not a batching axis, so the index is the result's coordinate on the first offset axis. -/
theorem operandIdx_0 (I : IVec S1 32) (j : S1024x2048.Idx) : (gd.operandIdx j I (⟨0, by decide⟩ : Fin 3)).val = (j 0).val := by
  show gd.start j I (⟨0, by decide⟩ : Fin 3) + gd.batchCoord j (⟨0, by decide⟩ : Fin 3) + gd.offCoord j (⟨0, by decide⟩ : Fin 3) = _
  rw [GatherDims.batchCoord_eq_zero _ _ _ List.not_mem_nil, Nat.add_zero]
  unfold GatherDims.start GatherDims.offCoord
  rw [dif_neg (by decide), dif_pos (by decide), Nat.zero_add]
  rfl

/-- On the middle axis: the start index 1. The axis is collapsed (no offset) and in the start index map, and the clamp
    of 1 to `[0, 4 − 1]` is 1. -/
theorem operandIdx_1 (I : IVec S1 32) (hI : ∀ i, I i = 1#32) (j : S1024x2048.Idx) :
    (gd.operandIdx j I (⟨1, by decide⟩ : Fin 3)).val = 1 := by
  show gd.start j I (⟨1, by decide⟩ : Fin 3) + gd.batchCoord j (⟨1, by decide⟩ : Fin 3) + gd.offCoord j (⟨1, by decide⟩ : Fin 3) = _
  rw [GatherDims.batchCoord_eq_zero _ _ _ List.not_mem_nil, Nat.add_zero,
    GatherDims.offCoord_eq_zero _ _ _ (by decide), Nat.add_zero]
  unfold GatherDims.start
  rw [dif_pos (by decide), hI]
  decide

/-- On the last axis: `j`, the result's coordinate on the second offset axis. -/
theorem operandIdx_2 (I : IVec S1 32) (j : S1024x2048.Idx) : (gd.operandIdx j I (⟨2, by decide⟩ : Fin 3)).val = (j 1).val := by
  show gd.start j I (⟨2, by decide⟩ : Fin 3) + gd.batchCoord j (⟨2, by decide⟩ : Fin 3) + gd.offCoord j (⟨2, by decide⟩ : Fin 3) = _
  rw [GatherDims.batchCoord_eq_zero _ _ _ List.not_mem_nil, Nat.add_zero]
  unfold GatherDims.start GatherDims.offCoord
  rw [dif_neg (by decide), dif_pos (by decide), Nat.zero_add]
  rfl

/-- The gather read at `(i, j)`: the operand at `(i, 1, j)`. -/
theorem gather_apply {α : Type} (x : S1024x4x2048.Idx → α) (I : IVec S1 32) (hI : ∀ i, I i = 1#32) (j : S1024x2048.Idx) :
    Host.gather gd x I j = x (ix3 (n0 := 1024) (n1 := 4) (n2 := 2048) (j 0) 1 (j 1)) := by
  unfold Host.gather
  congr 1
  funext a
  refine Fin.ext ?_
  match a with
  | ⟨0, _⟩ => exact operandIdx_0 I j
  | ⟨1, _⟩ => exact operandIdx_1 I hI j
  | ⟨2, _⟩ => exact operandIdx_2 I j

/-- The composed term is plane 1 of the argument along the middle axis: the mask is all ones, so the select takes the
    gathered array, and the gather at index 1 reads `(i, 1, j)` at `(i, j)`. -/
theorem out_eq_plane (x : FVec F S1024x4x2048 .f32) : out x = Cert.Plane.plane x := by
  funext j
  have hm : (mask : IVec S_ 1) = fun _ => 1#1 := funext mask_apply
  unfold out
  rw [hm]
  show Scalar.select 1#1 (Host.gather gd x idx j) _ = _
  rw [select_one, gather_apply x idx idx_apply j]
  rfl

/-! ## The run -/

/-- On every device, from any memory with zero counters: every weakly fair execution of @main terminates with the
    result buffer at plane 1 of the argument's launch contents and the argument unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v0)
            = Cert.Plane.plane (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run defs _ _).mono (fun _ h c => ⟨(h c main_v0).trans ((after_v0 _).trans (out_eq_plane _)),
      (h c main_arg0).trans (after_arg0 _)⟩)
    (run_main m ρ)

end Cert.RefRun

end
-- ==== Proof.lean ====
/-
  The claim: the kernel (at the word level and idealized) and the reference (idealized) each run to the end
  without a fault and leave the argument unchanged; the idealization rewrote nothing; and at the extended reals the
  idealized kernel and the idealized reference end with the same result.

  Both programs only move data. The reference takes plane 1 along the middle axis of the [1024, 4, 2048] argument
  (`jnp.take` at the constant index 1: the index is in range, so the fill value it keeps for an out-of-range index is
  never selected). The kernel has thirty-two vector subcores each carry one band of 32 rows of that plane through a
  scratch of its own into a [1024, 1, 2048] array, the bands pairwise disjoint and covering every row, and the host
  then drops the unit axis. Both results are `Cert.Plane.plane` of the argument, entry (i, j) = argument (i, 1, j), so
  they are equal element by element whatever the elements are: no property of the numbers is used, and the
  precondition that the inputs are finite is never opened.

  The kernel's run (Proof/SplitIdeal.lean, and the same text at the word level in Proof/SplitBits.lean) is stated once
  with its result named and the argument kept; each frame is that run with the result forgotten. The reference's run
  is Proof/RefRun.lean.
-/
import proofs.«202682_g7335804141591_cont_9to1_m_868_12_alg».proof.Defs
import proofs.«202682_g7335804141591_cont_9to1_m_868_12_alg».proof.Proof.Gen.Kernel
import proofs.«202682_g7335804141591_cont_9to1_m_868_12_alg».proof.Proof.Gen.Kernel.Skeleton
import proofs.«202682_g7335804141591_cont_9to1_m_868_12_alg».proof.Proof.Gen.KernelIdeal
import proofs.«202682_g7335804141591_cont_9to1_m_868_12_alg».proof.Proof.Gen.KernelIdeal.Skeleton
import proofs.«202682_g7335804141591_cont_9to1_m_868_12_alg».proof.Proof.Gen.ReferenceIdeal
import proofs.«202682_g7335804141591_cont_9to1_m_868_12_alg».proof.Proof.Gen.Pre_finite_inputs
import proofs.«202682_g7335804141591_cont_9to1_m_868_12_alg».proof.Proof.Plane
import proofs.«202682_g7335804141591_cont_9to1_m_868_12_alg».proof.Proof.SplitIdeal
import proofs.«202682_g7335804141591_cont_9to1_m_868_12_alg».proof.Proof.SplitBits
import proofs.«202682_g7335804141591_cont_9to1_m_868_12_alg».proof.Proof.RefRun
import Idealize.ShloMosaic.Adequacy
import Idealize.ShloMosaic.Init

noncomputable section

namespace Cert.Proof

open Idealize.ShloMosaic Idealize.SL.Sem

/-- The word-level kernel runs and keeps its argument: its run with the result forgotten. -/
theorem frame_kernel : Cert.frame_Kernel := fun m ρ _ =>
  (θ_run Cert.Kernel.defs _ _).mono (fun _ h c => (h c).2) (Cert.Kernel.Split.run_main (F := Bits) m ρ)

/-- The idealized kernel runs and keeps its argument. -/
theorem frame_kernelIdeal : Cert.frame_KernelIdeal := fun m ρ _ =>
  (θ_run Cert.KernelIdeal.defs _ _).mono (fun _ h c => (h c).2) (Cert.KernelIdeal.Split.run_main (F := Ideal) m ρ)

/-- The idealized reference runs and keeps its argument. -/
theorem frame_referenceIdeal : Cert.frame_ReferenceIdeal := fun m ρ _ =>
  (θ_run Cert.ReferenceIdeal.defs _ _).mono (fun _ h c => (h c).2) (Cert.RefRun.run m ρ)

/-- The idealization rewrote no operation. -/
theorem preserves : Cert.preserves_Kernel_KernelIdeal := trivial

/-- From memories agreeing on the argument both idealized programs end with plane 1 of it. -/
theorem algebraic : Cert.algebraic_KernelIdeal_ReferenceIdeal := by
  intro m ρ m' ρ' _ hagree
  refine ⟨fun c => Cert.Plane.plane (m ((c.tc : Thread Cert.KernelIdeal.nD Cert.KernelIdeal.τ).loc Cert.KernelIdeal.main_arg0)), ?_, ?_⟩
  · exact (θ_run Cert.KernelIdeal.defs _ _).mono (fun _ h c => h c) (Cert.KernelIdeal.Split.run_main (F := Ideal) m ρ)
  · refine (θ_run Cert.ReferenceIdeal.defs _ _).mono (fun _ h c => ⟨(h c).1.trans ?_, (h c).2⟩) (Cert.RefRun.run m' ρ')
    rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
